-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S400x10000, .f32⟩
  | .local _ .vmem, ⟨3, _⟩ => ⟨S400x10000, .f32⟩
  | .local _ .vmem, ⟨4, _⟩ => ⟨S400x256, .f32⟩
  | .local _ .vmem, ⟨5, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.GraphLayer.lean ====
/-
  A graph layer with no activation: the output array [10000, 256] is the product  adj · features · weight  of the
  adjacency matrix [10000, 10000], the node features [10000, 256] and the layer's weights [256, 256].

  The triple product can be bracketed two ways.  Aggregating first, entry (r, l) is
      Σ_j (Σ_k adj(r,k) · features(k,j)) · weight(j,l)                    (`aggregateFirst`),
  and projecting first it is
      Σ_k adj(r,k) · (Σ_j features(k,j) · weight(j,l))                    (`projectFirst`).
  On the extended reals the two need not agree: moving a factor across a sum is distributivity, which fails when an
  infinity meets terms of both signs.  When every entry is a real number both are the double sum
  Σ_k Σ_j adj(r,k) · features(k,j) · weight(j,l)  computed in ℝ, where the product is associative and distributes
  (`aggregateFirst_eq_projectFirst`).  Nothing here mentions a program.
-/
import Idealize.ShloMosaic.PureOps.Ideal
import Idealize.ShloMosaic.Lib.ValueIdx
import proofs.«121752_g79740362817879_cont_9to1c4b_137_17_alg».proof.Proof.LibFinite

noncomputable section

open scoped BigOperators

namespace Cert.GraphLayer

open Idealize.ShloMosaic Idealize.ShloMosaic.ValueIdx Cert.LibFinite

/-- The coercion of the reals into the extended reals carries a finite sum to the sum of the coercions: by induction
    on the index set, the coercion being additive. -/
theorem coe_sum {ι : Type} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- ASSOCIATIVITY OF THE TRIPLE PRODUCT, one entry, over real entries: a row `a` against a matrix `f` and then against
    a column `w` is the row against (the matrix against the column).  With real witnesses for every entry both sides are
    coercions of real numbers; in ℝ each side expands (a product distributes over a sum) to the double sum of
    a(k) · f(k,j) · w(j), in the two orders of summation. -/
theorem sum_mul_sum_assoc {ι κ : Type} [Fintype ι] [Fintype κ] (a : ι → EReal) (f : ι → κ → EReal) (w : κ → EReal)
    (ha : ∀ k, IsFin (a k)) (hf : ∀ k j, IsFin (f k j)) (hw : ∀ j, IsFin (w j)) :
    ∑ j, (∑ k, a k * f k j) * w j = ∑ k, a k * ∑ j, f k j * w j := by
  choose a' ha' using ha
  choose f' hf' using hf
  choose w' hw' using hw
  obtain rfl : a = fun k => ((a' k : ℝ) : EReal) := funext ha'
  obtain rfl : f = fun k j => ((f' k j : ℝ) : EReal) := funext fun k => funext (hf' k)
  obtain rfl : w = fun j => ((w' j : ℝ) : EReal) := funext hw'
  simp only [← EReal.coe_mul, ← coe_sum]
  rw [EReal.coe_eq_coe_iff]
  simp only [Finset.sum_mul, Finset.mul_sum]
  rw [Finset.sum_comm]
  exact Finset.sum_congr rfl fun k _ => Finset.sum_congr rfl fun j _ => mul_assoc _ _ _

/-- Entry (r, l) of (adj · features) · weight: aggregate the neighbours' features first, then project. -/
def aggregateFirst (f : (⟨2, ![10000, 256]⟩ : Shape).Idx → EReal) (a : (⟨2, ![10000, 10000]⟩ : Shape).Idx → EReal)
    (w : (⟨2, ![256, 256]⟩ : Shape).Idx → EReal) (r : Fin 10000) (l : Fin 256) : EReal :=
  ∑ j : Fin 256, (∑ k : Fin 10000, a (ix2 r k) * f (ix2 k j)) * w (ix2 j l)

/-- Entry (r, l) of adj · (features · weight): project every node's features first, then aggregate. -/
def projectFirst (f : (⟨2, ![10000, 256]⟩ : Shape).Idx → EReal) (a : (⟨2, ![10000, 10000]⟩ : Shape).Idx → EReal)
    (w : (⟨2, ![256, 256]⟩ : Shape).Idx → EReal) (r : Fin 10000) (l : Fin 256) : EReal :=
  ∑ k : Fin 10000, a (ix2 r k) * ∑ j : Fin 256, f (ix2 k j) * w (ix2 j l)

/-- The layer's output as an array, aggregating first: entry `i` is `aggregateFirst` at `i`'s row and column. -/
def layerArray (f : (⟨2, ![10000, 256]⟩ : Shape).Idx → EReal) (a : (⟨2, ![10000, 10000]⟩ : Shape).Idx → EReal)
    (w : (⟨2, ![256, 256]⟩ : Shape).Idx → EReal) : (⟨2, ![10000, 256]⟩ : Shape).Idx → EReal :=
  fun i => aggregateFirst f a w (i 0) (i 1)

/-- Over real entries the two bracketings give the same entry: row r of adj is the row, features the matrix and
    column l of weight the column of `sum_mul_sum_assoc`. -/
theorem aggregateFirst_eq_projectFirst (f : (⟨2, ![10000, 256]⟩ : Shape).Idx → EReal)
    (a : (⟨2, ![10000, 10000]⟩ : Shape).Idx → EReal) (w : (⟨2, ![256, 256]⟩ : Shape).Idx → EReal)
    (hf : ∀ i, IsFin (f i)) (ha : ∀ i, IsFin (a i)) (hw : ∀ i, IsFin (w i)) (r : Fin 10000) (l : Fin 256) :
    aggregateFirst f a w r l = projectFirst f a w r l :=
  sum_mul_sum_assoc (fun k : Fin 10000 => a (ix2 r k)) (fun (k : Fin 10000) (j : Fin 256) => f (ix2 k j))
    (fun j : Fin 256 => w (ix2 j l)) (fun k => ha _) (fun k j => hf _) (fun j => hw _)

end Cert.GraphLayer

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.KernelEntry.lean ====
/-
  The kernel body at one grid point holds a block of 400 rows of adj, all of features and all of weight, and stores
      (block · features) · weight,
  two matrix products each accumulated into zero.  Entry (p, q) of the stored block is therefore
      Σ_j (Σ_k block(p,k) · features(k,j)) · weight(j,q):
  the neighbours' features are aggregated first and the aggregate is then projected.
-/
import proofs.«121752_g79740362817879_cont_9to1c4b_137_17_alg».proof.Proof.Gen.KernelIdeal.Skeleton
import proofs.«121752_g79740362817879_cont_9to1c4b_137_17_alg».proof.Proof.LibRowOps

noncomputable section

open scoped BigOperators

namespace Cert.KernelIdeal.Entry

open Cert.KernelIdeal Cert.KernelIdeal.Gen Idealize.ShloMosaic Idealize.ShloMosaic.ValueIdx

/-- The stored value at (p, q), from the three loaded arrays: both dimension records are the plain product's, and a
    plain product accumulated into zero reads at an entry as the sum over the contracted coordinate — once for the
    projection (over the 256 feature columns) and, inside it, once for the aggregation (over the 10000 nodes). -/
theorem stored_apply (v0 : Vec Ideal S400x10000 .f32) (v1 : Vec Ideal S10000x256 .f32) (v3 : Vec Ideal S256x256 .f32)
    (p : Fin 400) (q : Fin 256) :
    k0_pay1 (F := Ideal) v0 v1 v3 (ix2 p q)
      = ∑ j : Fin 256, (∑ k : Fin 10000, v0 (ix2 p k) * v1 (ix2 k j)) * v3 (ix2 j q) := by
  show matmul dot_S400x256_S256x256_S400x256_1_0_0_1_n_n none
      (matmul dot_S400x10000_S10000x256_S400x256_1_0_0_1_n_n none v0 v1 (constant (F := Ideal) S400x256 .f32 0x00000000#32))
      v3 (constant (F := Ideal) S400x256 .f32 0x00000000#32) (ix2 p q) = _
  rw [Cert.RowLib.dotDims_eq_plain dot_S400x256_S256x256_S400x256_1_0_0_1_n_n rfl rfl rfl rfl rfl rfl,
    Cert.RowLib.dotDims_eq_plain dot_S400x10000_S10000x256_S400x256_1_0_0_1_n_n rfl rfl rfl rfl rfl rfl]
  rw [Cert.RowLib.matmul_plain_zero_ix2]
  simp only [Cert.RowLib.matmul_plain_zero_ix2]

end Cert.KernelIdeal.Entry

end
-- ==== Proof.KernelArray.lean ====
/-
  From the 25 stored blocks to the whole output array.

  Grid point t holds rows 400·t … 400·t + 399 of adj (all 10000 columns), all of features and all of weight, and writes
  rows 400·t … 400·t + 399 of the output (all 256 columns).  Entry (p, q) of the block it stores is
  Σ_j (Σ_k adj(400·t + p, k) · features(k,j)) · weight(j,q): it needs only row 400·t + p of adj, which is row p of the
  block the point holds.  So the block point t writes is the restriction, to those rows, of ONE array — the layer with
  the aggregation done first (`layerArray`) — and since every row r lies in the block of point r / 400, the 25 blocks
  tile the output and the array ends holding `layerArray` of the three argument arrays.
-/
import proofs.«121752_g79740362817879_cont_9to1c4b_137_17_alg».proof.Proof.Gen.KernelIdeal.Value
import proofs.«121752_g79740362817879_cont_9to1c4b_137_17_alg».proof.Proof.KernelEntry
import proofs.«121752_g79740362817879_cont_9to1c4b_137_17_alg».proof.Proof.GraphLayer

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

variable (m : (ℓ : Loc nD τ sig) → Buf (Elt Ideal) ℓ) (ρ : Dev nD → PrngReg)

/-- The body's loads and its store start at the origin of their buffers. -/
theorem origin_eq : (![0, 0] : Fin 2 → Nat) = fun _ => 0 := funext fun a => by fin_cases a <;> rfl

/-- Where each window's block sits at point t, decided over the 25 points: features and weight are one block each, at
    the origin; the adj block and the output block are both block-row t. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 24 ∧ win0_3.index t (1 : Fin 2) = 0 :=
  (by decide +kernel : ∀ t : Fin grid0.N, _)

/-- Every block-row of the output is some point's. -/
theorem block_onto : ∀ b : Fin 25, ∃ t : Fin cfg0.N, win0_3.index t = ![b.val, 0] :=
  (by decide +kernel : ∀ b : Fin 25, ∃ t : Fin grid0.N, win0_3.index t = ![b.val, 0])

/-- ONE ENTRY OF ONE STORED BLOCK, over plain arrays: if the two whole-array operands the body holds are features and
    weight, and row p of the adj block it holds is row r of adj, then entry (p, q) of what it stores is entry (r, q) of
    the layer, aggregation first. -/
theorem block_entry (x0 f : Vec Ideal S10000x256 .f32) (x1 w : Vec Ideal S256x256 .f32) (x2 : Vec Ideal S400x10000 .f32)
    (a : Vec Ideal S10000x10000 .f32) (p : Fin 400) (q : Fin 256) (r : Fin 10000) (l : Fin 256)
    (h0 : x0 = f) (h1 : x1 = w) (hl : l = q) (h2 : ∀ k : Fin 10000, x2 (ix2 p k) = a (ix2 r k)) :
    k0_pay1 (F := Ideal) x2 x0 x1 (ix2 p q) = aggregateFirst f a w r l := by
  subst h0 h1 hl
  rw [Cert.KernelIdeal.Entry.stored_apply]
  unfold aggregateFirst
  simp only [h2]

/-- WHAT POINT t WRITES BACK is block t of `layerArray` of the argument arrays as the region finds them: the stored
    block is the body's one store; features and weight are read whole; row p of the adj block is row
    (block-row · 400 + p) of adj, which is the row of the output the entry lands in. -/
theorem flushed_eq (c : Dev nD) (t : Fin cfg0.N) :
    (dats m 0 c).flushed 3 t = ((cfg0.win 3).blk t).view.read (Elt Ideal)
      (layerArray (V m c main_arg0) (V m c main_arg1) (V m c main_arg2)) := by
  rw [Cert.KernelIdeal.Value.flushed3]
  unfold out0_3
  rw [View.canon_unit_zero origin_eq]
  simp only [View.ld_unit_zero (S := S400x10000) origin_eq, View.ld_unit_zero (S := S10000x256) origin_eq,
    View.ld_unit_zero (S := S256x256) origin_eq]
  obtain ⟨e00, e01, e10, e11, e20, e21, e30, e31⟩ := index_facts t
  have hw0 : (iblk m c 0 t : Vec Ideal S10000x256 .f32) = V m c main_arg0 := by
    funext j
    show V m c main_arg0 (((cfg0.win 0).blk t).view.emb j) = V m c main_arg0 j
    refine congrArg (V m c main_arg0) (funext fun ax => Fin.ext ?_)
    match ax with
    | ⟨0, _⟩ => show win0_0.index t (0 : Fin 2) * 10000 + 1 * (j 0).val = (j 0).val; omega
    | ⟨1, _⟩ => show win0_0.index t (1 : Fin 2) * 256 + 1 * (j 1).val = (j 1).val; omega
  have hw1 : (iblk m c 1 t : Vec Ideal S256x256 .f32) = V m c main_arg2 := by
    funext j
    show V m c main_arg2 (((cfg0.win 1).blk t).view.emb j) = V m c main_arg2 j
    refine congrArg (V m c main_arg2) (funext fun ax => Fin.ext ?_)
    match ax with
    | ⟨0, _⟩ => show win0_1.index t (0 : Fin 2) * 256 + 1 * (j 0).val = (j 0).val; omega
    | ⟨1, _⟩ => show win0_1.index t (1 : Fin 2) * 256 + 1 * (j 1).val = (j 1).val; omega
  have key : ∀ y : S400x256.Idx, k0_pay1 (F := Ideal) (iblk m c 2 t) (iblk m c 0 t) (iblk m c 1 t) y
      = layerArray (V m c main_arg0) (V m c main_arg1) (V m c main_arg2) (((cfg0.win 3).blk t).view.emb y) := by
    intro y
    obtain ⟨p, q, rfl⟩ : ∃ (p : Fin 400) (q : Fin 256), y = ix2 p q := ⟨y 0, y 1, eq_ix2 y⟩
    have hi0 : ((((cfg0.win 3).blk t).view.emb (ix2 p q)) 0).val = win0_3.index t (0 : Fin 2) * 400 + 1 * p.val := rfl
    have hi1 : ((((cfg0.win 3).blk t).view.emb (ix2 p q)) 1).val = win0_3.index t (1 : Fin 2) * 256 + 1 * q.val := rfl
    unfold layerArray
    refine block_entry (iblk m c 0 t) (V m c main_arg0) (iblk m c 1 t) (V m c main_arg2) (iblk m c 2 t) (V m c main_arg1)
      p q ((((cfg0.win 3).blk t).view.emb (ix2 p q)) 0) ((((cfg0.win 3).blk t).view.emb (ix2 p q)) 1) hw0 hw1
      (Fin.ext ?_) (fun k => ?_)
    · show ((((cfg0.win 3).blk t).view.emb (ix2 p q)) 1).val = q.val
      rw [hi1]; omega
    · show V m c main_arg1 (((cfg0.win 2).blk t).view.emb (ix2 p k))
        = V m c main_arg1 (ix2 ((((cfg0.win 3).blk t).view.emb (ix2 p q)) 0) k)
      refine congrArg (V m c main_arg1) (funext fun ax => Fin.ext ?_)
      match ax with
      | ⟨0, _⟩ =>
        show win0_2.index t (0 : Fin 2) * 400 + 1 * p.val = ((((cfg0.win 3).blk t).view.emb (ix2 p q)) 0).val
        rw [hi0]; omega
      | ⟨1, _⟩ => show win0_2.index t (1 : Fin 2) * 10000 + 1 * k.val = k.val; omega
  exact funext key

/-- An index of the output is in point t's block iff each coordinate is in the block's range on its axis. -/
theorem mem_block (t : Fin cfg0.N) (i : S10000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v0).slice (win0_3.rect t)).set ↔ _
  rw [View.set_slice_whole, Rect.mem_set_unit]
  exact Iff.rfl

/-- THE BLOCKS TILE THE OUTPUT: row r lies in the block of the point whose block-row is r / 400, and every column in
    every block. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := block_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 400 ≤ (i 0).val ∧ (i 0).val < win0_3.index t (0 : Fin 2) * 400 + 400
    omega
  | ⟨1, _⟩ =>
    show win0_3.index t (1 : Fin 2) * 256 ≤ (i 1).val ∧ (i 1).val < win0_3.index t (1 : Fin 2) * 256 + 256
    omega

/-- THE OUTPUT ARRAY after the run is the layer, aggregation first, of the three argument arrays. -/
theorem final (c : Dev nD) : (dats m 0 c).arrAt 3 cfg0.N
    = layerArray (m ((c : Thread nD τ).loc main_arg0)) (m ((c : Thread nD τ).loc main_arg1)) (m ((c : Thread nD τ).loc main_arg2)) :=
  (dats m 0 c).arrAt_eq_of_cover 3 (layerArray (V m c main_arg0) (V m c main_arg1) (V m c main_arg2))
    (fun t _ => flushed_eq m c t) covered

/-- The kernel's run, read: every weakly fair execution terminates with the result array at the layer (aggregation
    first) of the argument arrays, and the arguments unchanged. -/
theorem run : θ_run defs (onTc (τ := τ) (main (F := Ideal))) ⟨m, fun _ => 0, ρ⟩ fun r => ∀ c : Dev nD,
      r.2.mem ((c : Thread nD τ).loc main_v0)
        = layerArray (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Layer

end
-- ==== Proof.ReferenceLayer.lean ====
/-
  The reference forms  support = features · weight  and then  adj · support, each a matrix product that contracts the left
  operand's columns against the right operand's rows.  Entry (r, l) of such a product is the sum over the contracted
  coordinate of left(r, ·) · right(·, l), so entry (r, l) of the result is
      Σ_k adj(r,k) · (Σ_j features(k,j) · weight(j,l)),
  the layer with the projection done first.
-/
import proofs.«121752_g79740362817879_cont_9to1c4b_137_17_alg».proof.Proof.Gen.ReferenceIdeal.Run
import proofs.«121752_g79740362817879_cont_9to1c4b_137_17_alg».proof.Proof.LibRowOps
import proofs.«121752_g79740362817879_cont_9to1c4b_137_17_alg».proof.Proof.GraphLayer
import Idealize.ShloMosaic.Lib.StackMember

noncomputable section

open scoped BigOperators

namespace Cert.ReferenceIdeal.Layer

open Cert.ReferenceIdeal Cert.ReferenceIdeal.Gen Idealize.ShloMosaic Idealize.ShloMosaic.ValueIdx Cert.GraphLayer

/-- The term the reference's run ends with — the product of adj with (the product of features with weight) — is, entry
    by entry, `projectFirst`: both dimension records are the plain product's, and a plain product at (r, l) is the sum
    over the contracted coordinate. -/
theorem result_eq (x0 : FVec Ideal S10000x256 .f32) (x1 : FVec Ideal S10000x10000 .f32) (x2 : FVec Ideal S256x256 .f32) :
    Host.dotGeneral (F := Ideal) dot_S10000x10000_S10000x256_S10000x256_1_0_0_1_n_n none x1
        (Host.dotGeneral (F := Ideal) dot_S10000x256_S256x256_S10000x256_1_0_0_1_n_n none x0 x2)
      = fun i : S10000x256.Idx => projectFirst x0 x1 x2 (i 0) (i 1) := by
  funext i
  obtain ⟨r, l, rfl⟩ : ∃ (r : Fin 10000) (l : Fin 256), i = ix2 r l := ⟨i 0, i 1, eq_ix2 i⟩
  rw [Cert.RowLib.dotDims_eq_plain dot_S10000x10000_S10000x256_S10000x256_1_0_0_1_n_n rfl rfl rfl rfl rfl rfl,
    Cert.RowLib.dotDims_eq_plain dot_S10000x256_S256x256_S10000x256_1_0_0_1_n_n rfl rfl rfl rfl rfl rfl]
  rw [StackMember.dotGeneral_plain_apply]
  simp only [StackMember.dotGeneral_plain_apply]
  rfl

end Cert.ReferenceIdeal.Layer

end
-- ==== Proof.FiniteEntries.lean ====
/-
  The precondition, read entry by entry.  It is the conjunction of three tests, one per argument array:
  "every entry's absolute value is below +∞".  The absolute value of an extended real x is max x (−x); it is +∞ at
  both infinities and |x| at a real, so the test at an entry holds exactly when the entry is a real number.  Each test
  is an `and` over all entries that is 1, so it is 1 at every entry.
-/
import proofs.«121752_g79740362817879_cont_9to1c4b_137_17_alg».proof.Proof.Gen.Pre_finite_inputs
import proofs.«121752_g79740362817879_cont_9to1c4b_137_17_alg».proof.Proof.LibFinite
import Idealize.ShloMosaic.Lib.ReduceAll
import Idealize.ShloMosaic.Lib.ValueIdx

noncomputable section

namespace Cert.Pre_finite_inputs.Entries

open Cert.Pre_finite_inputs Cert.Pre_finite_inputs.Gen Idealize.ShloMosaic Cert.LibFinite

/-- A rank-0 array has one index. -/
instance : Subsingleton S_.Idx := ⟨fun a b => funext fun d => d.elim0⟩

/-- An extended real whose absolute value max x (−x) is below +∞ is a real number: at −∞ the maximum is −(−∞) = +∞,
    at +∞ it is +∞, and +∞ is not below itself. -/
theorem isFin_of_abs_lt_top (x : Ideal .f32)
    (h : FloatOps.cmpf (F := Ideal) .olt (FloatOps.hostAbsf x) (FloatOps.ofBits (F := Ideal) .f32 0x7F800000#32) = 1#1) :
    IsFin x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hx : (x : EReal) = ⊤ ∨ (x : EReal) = ⊥
  · exfalso
    have hn : ¬ (max (x : EReal) (-(x : EReal)) < ⊤) := by
      rcases hx with hx | hx <;> subst hx <;> simp
    simp [hn] at h
  · have h1 : (x : EReal) ≠ ⊤ := fun e => hx (Or.inl e)
    have h2 : (x : EReal) ≠ ⊥ := fun e => hx (Or.inr e)
    exact ⟨EReal.toReal x, (EReal.coe_toReal h1 h2).symm⟩

/-- Under the precondition every entry of each of the three argument arrays is a real number. -/
theorem finite_of_pre (x0 : FVec Ideal S10000x256 .f32) (x1 : FVec Ideal S10000x10000 .f32) (x2 : FVec Ideal S256x256 .f32)
    (h : fn (F := Ideal) x0 x1 x2 = fun _ => 1#1) :
    (∀ i, IsFin (x0 i)) ∧ (∀ i, IsFin (x1 i)) ∧ (∀ i, IsFin (x2 i)) := by
  have h1 := congrFun h ValueIdx.ix0
  dsimp only [fn] at h1
  obtain ⟨h01, h2⟩ := IntOp.andi_eq_one.mp h1
  obtain ⟨h0, h1'⟩ := IntOp.andi_eq_one.mp h01
  exact ⟨fun i => isFin_of_abs_lt_top _ (Host.reduce_andi_all _ _ _ _ _ h0 i),
    fun i => isFin_of_abs_lt_top _ (Host.reduce_andi_all _ _ _ _ _ h1' i),
    fun i => isFin_of_abs_lt_top _ (Host.reduce_andi_all _ _ _ _ _ h2 i)⟩

end Cert.Pre_finite_inputs.Entries

end
-- ==== Proof.lean ====
/-
  A graph layer with no activation,  output = adj · features · weight  over f32[10000, 256], [10000, 10000], [256, 256].

  The kernel walks the 25 blocks of 400 rows of adj.  At each it holds the block, all of features and all of weight, and
  stores (block · features) · weight into the same 400 rows of the output: the neighbours' features are aggregated
  first and the aggregate is projected.  The reference projects first: support = features · weight, then adj · support.

  On the extended reals every product here is the exact sum over the contracted coordinate, so entry (r, l) is
      kernel:     Σ_j (Σ_k adj(r,k) · features(k,j)) · weight(j,l)
      reference:  Σ_k adj(r,k) · (Σ_j features(k,j) · weight(j,l)).
  These are the two bracketings of a triple matrix product.  They agree when every entry is a real number — both are
  then the double sum Σ_k Σ_j adj(r,k) · features(k,j) · weight(j,l) in ℝ — and that is what the precondition gives:
  each argument's entries have absolute value below +∞.  (Without it the two can differ: distributing a factor over a
  sum fails on the extended reals when an infinity meets terms of both signs.)

  The parts: `GraphLayer` states the two bracketings and proves them equal over real entries; `KernelEntry` reads the
  stored block at an entry; `KernelArray` shows the 25 stored blocks are the rows of one array and tile the output;
  `ReferenceLayer` reads the reference's two products at an entry; `FiniteEntries` reads the precondition entry by
  entry.  The three programs' termination, absence of faults and unchanged arguments are the generated frame runs; the
  kernel's idealization rewrote no operation, so that it is the kernel's sanctioned idealization has nothing to state.
-/
import proofs.«121752_g79740362817879_cont_9to1c4b_137_17_alg».proof.Defs
import proofs.«121752_g79740362817879_cont_9to1c4b_137_17_alg».proof.Proof.Gen.Kernel
import proofs.«121752_g79740362817879_cont_9to1c4b_137_17_alg».proof.Proof.Gen.Kernel.Skeleton
import proofs.«121752_g79740362817879_cont_9to1c4b_137_17_alg».proof.Proof.Gen.Kernel.Launch
import proofs.«121752_g79740362817879_cont_9to1c4b_137_17_alg».proof.Proof.Gen.Kernel.Points
import proofs.«121752_g79740362817879_cont_9to1c4b_137_17_alg».proof.Proof.Gen.Kernel.Frame
import proofs.«121752_g79740362817879_cont_9to1c4b_137_17_alg».proof.Proof.Gen.KernelIdeal
import proofs.«121752_g79740362817879_cont_9to1c4b_137_17_alg».proof.Proof.Gen.KernelIdeal.Skeleton
import proofs.«121752_g79740362817879_cont_9to1c4b_137_17_alg».proof.Proof.Gen.KernelIdeal.Launch
import proofs.«121752_g79740362817879_cont_9to1c4b_137_17_alg».proof.Proof.Gen.KernelIdeal.Points
import proofs.«121752_g79740362817879_cont_9to1c4b_137_17_alg».proof.Proof.Gen.KernelIdeal.Frame
import proofs.«121752_g79740362817879_cont_9to1c4b_137_17_alg».proof.Proof.Gen.ReferenceIdeal
import proofs.«121752_g79740362817879_cont_9to1c4b_137_17_alg».proof.Proof.Gen.KernelIdeal.Value
import proofs.«121752_g79740362817879_cont_9to1c4b_137_17_alg».proof.Proof.Gen.ReferenceIdeal.Run
import proofs.«121752_g79740362817879_cont_9to1c4b_137_17_alg».proof.Proof.Gen.Pre_finite_inputs
import proofs.«121752_g79740362817879_cont_9to1c4b_137_17_alg».proof.Proof.GraphLayer
import proofs.«121752_g79740362817879_cont_9to1c4b_137_17_alg».proof.Proof.KernelArray
import proofs.«121752_g79740362817879_cont_9to1c4b_137_17_alg».proof.Proof.ReferenceLayer
import proofs.«121752_g79740362817879_cont_9to1c4b_137_17_alg».proof.Proof.FiniteEntries
import Idealize.ShloMosaic.Adequacy
import Idealize.ShloMosaic.Init

noncomputable section

namespace Cert.Proof

open Idealize.ShloMosaic Idealize.ShloMosaic.TcCoe Idealize.SL.Sem Cert.GraphLayer

/-- The kernel as printed runs to the end with its arguments unchanged: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its generated run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the layer's output.  The kernel's array is the layer with the aggregation first
    (`KernelArray`), the reference's the layer with the projection first (`ReferenceLayer`), of arguments that agree;
    the precondition makes every entry a real number (`FiniteEntries`), and over real entries the two bracketings are
    the same number at every entry (`GraphLayer`). -/
theorem algebraic : Cert.algebraic_KernelIdeal_ReferenceIdeal := by
  intro m ρ m' ρ' hpre hagree
  refine ⟨fun c => layerArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Layer.result_eq _ _ _).trans ?_
  rw [(hagree c).1, (hagree c).2.1, (hagree c).2.2]
  obtain ⟨hf, ha, hw⟩ := Cert.Pre_finite_inputs.Entries.finite_of_pre _ _ _ (hpre c)
  funext i
  exact (aggregateFirst_eq_projectFirst _ _ _ hf ha hw (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
